-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S2x1600000 32) (main_arg2 : FVec F S128x128 .f32) (main_arg3 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S5000x128 : Shape := ⟨2, ![5000, 128]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩

abbrev nBuf : Space → Nat
  | .hbm => 63
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S50000x128, .f32⟩
  | .hbm, ⟨5, _⟩ => ⟨S50000, .i32⟩
  | .hbm, ⟨6, _⟩ => ⟨S1x1600000, .i32⟩
  | .hbm, ⟨7, _⟩ => ⟨S1600000, .i32⟩
  | .hbm, ⟨8, _⟩ => ⟨S1650000, .i32⟩
  | .hbm, ⟨9, _⟩ => ⟨S1x1600000, .i32⟩
  | .hbm, ⟨10, _⟩ => ⟨S1600000, .i32⟩
  | .hbm, ⟨11, _⟩ => ⟨S1650000, .i32⟩
  | .hbm, ⟨12, _⟩ => ⟨S_, .f32⟩
  | .hbm, ⟨13, _⟩ => ⟨S1650000, .f32⟩
  | .hbm, ⟨14, _⟩ => ⟨S_, .f32⟩
  | .hbm, ⟨15, _⟩ => ⟨S50000, .f32⟩
  | .hbm, ⟨16, _⟩ => ⟨S1650000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S1650000, .i32⟩
  | .hbm, ⟨28, _⟩ => ⟨S1650000, .i1⟩
  | .hbm, ⟨29, _⟩ => ⟨S_, .i32⟩
  | .hbm, ⟨30, _⟩ => ⟨S1650000, .i32⟩
  | .hbm, ⟨31, _⟩ => ⟨S1650000, .i32⟩
  | .hbm, ⟨32, _⟩ => ⟨S1650000, .i32⟩
  | .hbm, ⟨33, _⟩ => ⟨S1650000x1, .i32⟩
  | .hbm, ⟨34, _⟩ => ⟨S1650000, .f32⟩
  | .hbm, ⟨35, _⟩ => ⟨S_, .i32⟩
  | .hbm, ⟨36, _⟩ => ⟨S1650000, .i32⟩
  | .hbm, ⟨37, _⟩ => ⟨S1650000, .i1⟩
  | .hbm, ⟨38, _⟩ => ⟨S_, .i32⟩
  | .hbm, ⟨39, _⟩ => ⟨S1650000, .i32⟩
  | .hbm, ⟨40, _⟩ => ⟨S1650000, .i32⟩
  | .hbm, ⟨41, _⟩ => ⟨S1650000, .i32⟩
  | .hbm, ⟨42, _⟩ => ⟨S1650000x1, .i32⟩
  | .hbm, ⟨43, _⟩ => ⟨S1650000, .f32⟩
  | .hbm, ⟨44, _⟩ => ⟨S1650000, .f32⟩
  | .hbm, ⟨45, _⟩ => ⟨S_, .i32⟩
  | .hbm, ⟨46, _⟩ => ⟨S1650000, .i32⟩
  | .hbm, ⟨47, _⟩ => ⟨S1650000, .i1⟩
  | .hbm, ⟨48, _⟩ => ⟨S_, .i32⟩
  | .hbm, ⟨49, _⟩ => ⟨S1650000, .i32⟩
  | .hbm, ⟨50, _⟩ => ⟨S1650000, .i32⟩
  | .hbm, ⟨51, _⟩ => ⟨S1650000, .i32⟩
  | .hbm, ⟨52, _⟩ => ⟨S1650000x1, .i32⟩
  | .hbm, ⟨53, _⟩ => ⟨S1650000x128, .f32⟩
  | .hbm, ⟨54, _⟩ => ⟨S1650000x1, .f32⟩
  | .hbm, ⟨55, _⟩ => ⟨S1650000x128, .f32⟩
  | .hbm, ⟨56, _⟩ => ⟨S1650000x128, .f32⟩
  | .hbm, ⟨57, _⟩ => ⟨S_, .f32⟩
  | .hbm, ⟨58, _⟩ => ⟨S50000x128, .f32⟩
  | .hbm, ⟨59, _⟩ => ⟨S1650000x1, .i32⟩
  | .hbm, ⟨60, _⟩ => ⟨S50000x128, .f32⟩
  | .hbm, ⟨61, _⟩ => ⟨S1x128, .f32⟩
  | .hbm, ⟨62, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S5000x128_S128x128_S5000x128_1_0_0_1_n_n_wf : DotDims.WF S5000x128 S128x128 S5000x128 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩

abbrev nBuf : Space → Nat
  | .hbm => 67
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S50000x128, .f32⟩
  | .hbm, ⟨5, _⟩ => ⟨S50000, .i32⟩
  | .hbm, ⟨6, _⟩ => ⟨S1x1600000, .i32⟩
  | .hbm, ⟨7, _⟩ => ⟨S1600000, .i32⟩
  | .hbm, ⟨8, _⟩ => ⟨S1650000, .i32⟩
  | .hbm, ⟨9, _⟩ => ⟨S1x1600000, .i32⟩
  | .hbm, ⟨10, _⟩ => ⟨S1600000, .i32⟩
  | .hbm, ⟨11, _⟩ => ⟨S1650000, .i32⟩
  | .hbm, ⟨12, _⟩ => ⟨S_, .f32⟩
  | .hbm, ⟨13, _⟩ => ⟨S1650000, .f32⟩
  | .hbm, ⟨14, _⟩ => ⟨S_, .f32⟩
  | .hbm, ⟨15, _⟩ => ⟨S50000, .f32⟩
  | .hbm, ⟨16, _⟩ => ⟨S1650000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S1650000, .i32⟩
  | .hbm, ⟨28, _⟩ => ⟨S1650000, .i1⟩
  | .hbm, ⟨29, _⟩ => ⟨S_, .i32⟩
  | .hbm, ⟨30, _⟩ => ⟨S1650000, .i32⟩
  | .hbm, ⟨31, _⟩ => ⟨S1650000, .i32⟩
  | .hbm, ⟨32, _⟩ => ⟨S1650000, .i32⟩
  | .hbm, ⟨33, _⟩ => ⟨S1650000x1, .i32⟩
  | .hbm, ⟨34, _⟩ => ⟨S1650000, .f32⟩
  | .hbm, ⟨35, _⟩ => ⟨S_, .i32⟩
  | .hbm, ⟨36, _⟩ => ⟨S1650000, .i32⟩
  | .hbm, ⟨37, _⟩ => ⟨S1650000, .i1⟩
  | .hbm, ⟨38, _⟩ => ⟨S_, .i32⟩
  | .hbm, ⟨39, _⟩ => ⟨S1650000, .i32⟩
  | .hbm, ⟨40, _⟩ => ⟨S1650000, .i32⟩
  | .hbm, ⟨41, _⟩ => ⟨S1650000, .i32⟩
  | .hbm, ⟨42, _⟩ => ⟨S1650000x1, .i32⟩
  | .hbm, ⟨43, _⟩ => ⟨S1650000, .f32⟩
  | .hbm, ⟨44, _⟩ => ⟨S1650000, .f32⟩
  | .hbm, ⟨45, _⟩ => ⟨S_, .i32⟩
  | .hbm, ⟨46, _⟩ => ⟨S1650000, .i32⟩
  | .hbm, ⟨47, _⟩ => ⟨S1650000, .i1⟩
  | .hbm, ⟨48, _⟩ => ⟨S_, .i32⟩
  | .hbm, ⟨49, _⟩ => ⟨S1650000, .i32⟩
  | .hbm, ⟨50, _⟩ => ⟨S1650000, .i32⟩
  | .hbm, ⟨51, _⟩ => ⟨S1650000, .i32⟩
  | .hbm, ⟨52, _⟩ => ⟨S1650000x1, .i32⟩
  | .hbm, ⟨53, _⟩ => ⟨S1650000x128, .f32⟩
  | .hbm, ⟨54, _⟩ => ⟨S1650000x1, .f32⟩
  | .hbm, ⟨55, _⟩ => ⟨S1650000x128, .f32⟩
  | .hbm, ⟨56, _⟩ => ⟨S1650000x128, .f32⟩
  | .hbm, ⟨57, _⟩ => ⟨S_, .f32⟩
  | .hbm, ⟨58, _⟩ => ⟨S50000x128, .f32⟩
  | .hbm, ⟨59, _⟩ => ⟨S1650000x1, .i32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf

class Facts : Prop extends Facts₀ where

variable [Facts]
-- ==== Proof.KernelRun.lean ====
/-
  The kernel program's run, with its result.

  The program is two kernels among three stretches of host operations. Its buffers' contents at the five boundaries are a
  fold from the launch memory: region 0 replaces its result array, the stretches apply their operations, region 1
  replaces its result array. Every weakly fair execution terminates, without a fault, with every unscoped buffer at the
  last boundary's contents: in particular the program's result buffer, and the four arguments, which nothing writes.
-/
import proofs.«165486_j45586782880363_1_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v45) = W5 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v45 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.Result

end
-- ==== Proof.Layer.lean ====
/-
  One graph-convolution layer, as a function of its four arrays.

  With `x : [50000, 128]` the node features, `e : [2, 1600000]` the edge list (row 0 the sources, row 1 the targets),
  `W : [128, 128]` the weights and `b : [128]` the bias, the layer is

      out = max (aggregate (x · W) e + b, 0),

  where `x · W` is the matrix product, entry `(p, q)` the sum over `k` of `x (p, k) * W (k, q)` (`matProd`);
  `aggregate h e` appends a self-loop to every node, counts each node's incoming edges, takes the inverse square root
  of the counts (zero where the count is not positive), and sums into every target the source's row of `h` scaled by the
  product of the two end points' factors; and the bias is added to every row before the rectifier (`biasRelu`).

  Both programs apply the SAME chain of host operations for `aggregate`: it is stated here once, operation by operation,
  and never opened again. What differs between them is who computes the product and who adds the bias.
-/
import proofs.«165486_j45586782880363_1_alg».proof.KernelIdeal
import Idealize.ShloMosaic.Lib.ValueIdx
import Idealize.ShloMosaic.PureOps.Ideal

noncomputable section

namespace Cert.Layer

open Idealize.ShloMosaic Idealize.ShloMosaic.ValueIdx Cert.KernelIdeal Cert.KernelIdeal.Facts₀

section Aggregate

variable {F : FTy → Type} [FloatOps F] [Cert.KernelIdeal.Facts]

/-- The normalized neighbourhood sum of the rows of `h` along the edges `e`, self-loops added.
    `src`, `dst`: the edges' end points followed by `0 … 49999` (the self-loops). `deg`: how many edges arrive at each
    node, as a sum of ones scattered to the targets. `dis`: `deg ^ (-1/2)` where `deg > 0`, else `0`. An end point is
    looked up after a negative index has been wrapped by the number of nodes (`wrap`). `norm`: per edge, the product
    of the factors of its two end points. The result scatters `h`'s source row times `norm` to the edge's target, summing. -/
def aggregate (h : FVec F S50000x128 .f32) (e : IVec S2x1600000 32) : FVec F S50000x128 .f32 :=
  let loop : IVec S50000 32 := iotaInDim S50000 32 0
  let src : IVec S1650000 32 := concatenate S1650000 0 [⟨S1600000, (shapeCast _ (extractStridedSlice S1x1600000 ![0, 0] e slices_S2x1600000_S1x1600000_0_0) shapeCasts_S1x1600000_S1600000)⟩, ⟨S50000, loop⟩] concatenates_S1600000_S50000_S1650000_d0
  let dst : IVec S1650000 32 := concatenate S1650000 0 [⟨S1600000, (shapeCast _ (extractStridedSlice S1x1600000 ![1, 0] e slices_S2x1600000_S1x1600000_1_0) shapeCasts_S1x1600000_S1600000)⟩, ⟨S50000, loop⟩] concatenates_S1600000_S50000_S1650000_d0
  let deg : FVec F S50000 .f32 := Host.scatterAdd scatter_S50000_S1650000x1_S1650000_n_0_0_1
    (broadcastInDim S50000 ![] bcast_S_S50000 (constant S_ .f32 0x00000000#32))
    (broadcastInDim S1650000x1 ![0] bcast_S1650000_S1650000x1_0 dst)
    (broadcastInDim S1650000 ![] bcast_S_S1650000 (constant S_ .f32 0x3F800000#32))
  let dis : FVec F S50000 .f32 := select (cmpf .ogt deg (broadcastInDim S50000 ![] bcast_S_S50000 (constant S_ .f32 0x00000000#32)))
    (Host.rsqrt deg) (broadcastInDim S50000 ![] bcast_S_S50000 (id (constant S_ .f32 0x00000000#32)))
  let wrap : IVec S1650000 32 → IVec S1650000 32 := fun v =>
    select (cmpi .slt v (broadcastInDim S1650000 ![] bcast_S_S1650000 (constantI S_ 32 0#32)))
      (addi v (broadcastInDim S1650000 ![] bcast_S_S1650000 (constantI S_ 32 50000#32))) v
  let norm : FVec F S1650000 .f32 := mulf
    (Host.gather gather_S50000_S1650000x1_S1650000_n_0_n_n_0_1_1 dis (broadcastInDim S1650000x1 ![0] bcast_S1650000_S1650000x1_0 (wrap src)))
    (Host.gather gather_S50000_S1650000x1_S1650000_n_0_n_n_0_1_1 dis (broadcastInDim S1650000x1 ![0] bcast_S1650000_S1650000x1_0 (wrap dst)))
  let msg : FVec F S1650000x128 .f32 := mulf
    (Host.gather gather_S50000x128_S1650000x1_S1650000x128_1_0_n_n_0_1_1128 h (broadcastInDim S1650000x1 ![0] bcast_S1650000_S1650000x1_0 (wrap src)))
    (broadcastInDim S1650000x128 ![0, 1] bcast_S1650000x1_S1650000x128_0_1 (broadcastInDim S1650000x1 ![0] bcast_S1650000_S1650000x1_0 norm))
  Host.scatterAdd scatter_S50000x128_S1650000x1_S1650000x128_1_0_0_1
    (broadcastInDim S50000x128 ![] bcast_S_S50000x128 (constant S_ .f32 0x00000000#32))
    (broadcastInDim S1650000x1 ![0] bcast_S1650000_S1650000x1_0 dst) msg

end Aggregate

/-- The matrix product `x · W` on the extended reals: entry `(p, q)` is the sum over `k` of `x (p, k) * W (k, q)`. -/
def matProd (x : FVec Ideal S50000x128 .f32) (W : FVec Ideal S128x128 .f32) : FVec Ideal S50000x128 .f32 :=
  fun i => ∑ k : Fin 128, x (ix2 (n0 := 50000) (n1 := 128) ⟨(i 0).val, idx2_lt0 i⟩ k) * W (ix2 (n0 := 128) (n1 := 128) k ⟨(i 1).val, idx2_lt1 i⟩)

/-- The bias added to every row, then the rectifier: entry `(p, q)` is `max (a (p, q) + b q) 0`. -/
def biasRelu (a : FVec Ideal S50000x128 .f32) (b : FVec Ideal S128 .f32) : FVec Ideal S50000x128 .f32 :=
  fun i => max (a i + b (ix1 (n := 128) ⟨(i 1).val, idx2_lt1 i⟩)) (Ideal.ofBits .f32 0x00000000#32)

/-- The layer. -/
def layer [Cert.KernelIdeal.Facts] (x : FVec Ideal S50000x128 .f32) (e : IVec S2x1600000 32) (W : FVec Ideal S128x128 .f32)
    (b : FVec Ideal S128 .f32) : FVec Ideal S50000x128 .f32 :=
  biasRelu (aggregate (matProd x W) e) b

end Cert.Layer

end
-- ==== Proof.LibPlainDot.lean ====
import Idealize.ShloMosaic.Lib.ValueIdx
import Idealize.ShloMosaic.Lib.Pipeline.Value
import Idealize.ShloMosaic.PureOps.Ideal.Laws

/-!
A plain matrix product `[M, K] × [K, N]` read at an index, on the extended reals: the kernel's `tpu.matmul` into a
zero accumulator and the host's `dot_general` are both `∑ k, x (p, k) · W (k, q)` at `(p, q)`, with the sum
over the literal `Fin K`. Stated for the dimension numbers `DotDims.plain M K N`, which every product of the two
programs has.
-/

noncomputable section

namespace Idealize.ShloMosaic.PlainDot

open Idealize.ShloMosaic Idealize.ShloMosaic.ValueIdx

variable {φ₁ φ₂ : FTy}

theorem lhs_row (M K N : Nat) (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem rhs_col (M K N : Nat) (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction sum of a plain product, over the literal `Fin K`. -/
theorem contr_sum (M K N : Nat) (x : (⟨2, ![M, K]⟩ : Shape).Idx → EReal) (W : (⟨2, ![K, N]⟩ : Shape).Idx → EReal)
    (p : Fin M) (q : Fin N) :
    ∑ k : (DotDims.plain M K N).contr.Idx,
        x ((DotDims.plain M K N).lhsIdx (ix2 p q) k) * W ((DotDims.plain M K N).rhsIdx (ix2 p q) k)
      = ∑ k : Fin K, x (ix2 p k) * W (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => exact rhs_col M K N _ _)
  rw [el, er]

/-- A `tpu.matmul` into the zero accumulator, at `(p, q)`. -/
theorem matmul_zero_apply (M K N : Nat) (prec : Option ContractPrecision)
    (x : FVec Ideal ⟨2, ![M, K]⟩ φ₁) (W : FVec Ideal ⟨2, ![K, N]⟩ φ₂) (p : Fin M) (q : Fin N) :
    FloatOps.matmul (DotDims.plain M K N) prec x W (constant ⟨2, ![M, N]⟩ .f32 0x00000000#32) (ix2 p q)
      = ∑ k : Fin K, x (ix2 p k) * W (ix2 k q) := by
  rw [Ideal.matmul_constant_zero_apply]
  exact contr_sum M K N x W p q

/-- The host's `dot_general`, at `(p, q)`. -/
theorem dotGeneral_apply (M K N : Nat) (prec : Option ContractPrecision) (sched : HostSchedule)
    (x : FVec Ideal ⟨2, ![M, K]⟩ φ₁) (W : FVec Ideal ⟨2, ![K, N]⟩ φ₂) (p : Fin M) (q : Fin N) :
    FloatOps.dotGeneral (DotDims.plain M K N) prec sched x W (ix2 p q) = ∑ k : Fin K, x (ix2 p k) * W (ix2 k q) := by
  rw [Ideal.dotGeneral_apply]
  exact contr_sum M K N x W p q

end Idealize.ShloMosaic.PlainDot

end
-- ==== Proof.Product.lean ====
/-
  Region 0 computes the matrix product.

  The first kernel runs over ten grid points. At point `t` it loads rows `5000 t … 5000 t + 4999` of the feature array and
  the whole weight array, multiplies them, and writes the product back as rows `5000 t … 5000 t + 4999` of its result. The ten
  row blocks tile the result, and row `r` of a product depends only on row `r` of the left factor: so the result array ends
  holding `Layer.matProd` of the two arrays the region found, entry by entry.
-/
import proofs.«165486_j45586782880363_1_alg».proof.Proof.Gen.KernelIdeal.Frame
import proofs.«165486_j45586782880363_1_alg».proof.Proof.Layer
import proofs.«165486_j45586782880363_1_alg».proof.Proof.LibPlainDot
import Idealize.ShloMosaic.Lib.Pipeline.Value

noncomputable section

namespace Cert.KernelIdeal.Product

open Idealize.ShloMosaic Idealize.ShloMosaic.TcCoe Idealize.ShloMosaic.ValueIdx Idealize.SL.Sem
open Idealize.ShloMosaic.Pipeline (Dat)
open Cert.KernelIdeal Cert.KernelIdeal.Gen

/-- The body's one stored value at `(p, q)`: the product of the loaded row block and the loaded weights, entry
    `(p, q)` — the rounding of both operands to bf16 is the identity on the extended reals, and the accumulator starts at
    zero, so it is the plain sum over the 128 shared indices. -/
theorem stored_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  exact PlainDot.matmul_zero_apply 5000 128 128 none (truncf .bf16 x0 Facts₀.bitsLt_bf16_f32) (truncf .bf16 x1 Facts₀.bitsLt_bf16_f32) p q

variable (V : (c : Dev nD) → (b : Ref sig .tc) → Buf (Elt Ideal) ((c : Thread nD τ).loc b))

theorem zero_offsets : (![0, 0] : Fin 2 → Nat) = fun _ => 0 := funext fun a => by fin_cases a <;> rfl

/-- The three index maps over the ten grid points: at point `t` the feature window and the result window sit at row block
    `t`, the weight window at its only block. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 10 := by have := t.isLt; have hN : cfg0.N = 10 := N_0; omega

/-- The feature window's block at point `t` is rows `5000 t … 5000 t + 4999` of the feature array. -/
theorem features_block (c : Dev nD) (t : Fin cfg0.N) (p : Fin 5000) (k : Fin 128) :
    (iblk0 V c 0 t : Vec Ideal S5000x128 .f32) (ix2 p k)
      = (V c main_arg0 : FVec Ideal S50000x128 .f32) (ix2 (n0 := 50000) (n1 := 128) ⟨t.val * 5000 + p.val, by have := point_lt t; have := p.isLt; omega⟩ k) := by
  obtain ⟨e0, e1, -⟩ := block_indices t
  unfold iblk0
  rw [View.read_apply]
  show V c main_arg0 _ = V c main_arg0 _
  refine congrArg (V c main_arg0) ?_
  funext a
  apply Fin.ext
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- The weight window's block, at every point, is the whole weight array. -/
theorem weights_block (c : Dev nD) (t : Fin cfg0.N) (k : Fin 128) (q : Fin 128) :
    (iblk0 V c 1 t : Vec Ideal S128x128 .f32) (ix2 k q) = (V c main_arg2 : FVec Ideal S128x128 .f32) (ix2 k q) := by
  obtain ⟨-, -, e2, e3, -⟩ := block_indices t
  unfold iblk0
  rw [View.read_apply]
  show V c main_arg2 _ = V c main_arg2 _
  refine congrArg (V c main_arg2) ?_
  funext a
  apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- What point `t` writes back is block `t` of the matrix product of the two arrays the region finds. -/
theorem written_back (c : Dev nD) (t : Fin cfg0.N) :
    (dat0 V c).flushed 2 t = ((cfg0.win 2).blk t).view.read (Elt Ideal) (Layer.matProd (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  funext j
  obtain ⟨p, q, rfl⟩ : ∃ (p : Fin 5000) (q : Fin 128), j = ix2 p q := ⟨j 0, j 1, eq_ix2 j⟩
  obtain ⟨-, -, -, -, e4, e5⟩ := block_indices t
  rw [View.read_apply]
  show k0_pay1 (iblk0 V c 0 t) (iblk0 V c 1 t) (ix2 p q) = Layer.matProd (V c main_arg0) (V c main_arg2) _
  refine (stored_apply _ _ p q).trans ?_
  unfold Layer.matProd
  refine Finset.sum_congr rfl fun k _ => ?_
  rw [features_block V c t p k, weights_block V c t k q]
  have h0 : (((cfg0.win 2).blk t).view.emb (ix2 p q) 0).val = t.val * 5000 + p.val := by
    show win0_2.index t (0 : Fin 2) * 5000 + 1 * p.val = _
    rw [e4]; omega
  have h1 : (((cfg0.win 2).blk t).view.emb (ix2 p q) 1).val = q.val := by
    show win0_2.index t (1 : Fin 2) * 128 + 1 * q.val = _
    rw [e5]; omega
  refine congrArg₂ (· * ·) (congrArg (V c main_arg0) ?_) (congrArg (V c main_arg2) ?_)
  · exact congrArg (fun r : Fin 50000 => ix2 r k) (Fin.ext h0.symm)
  · exact congrArg (fun r : Fin 128 => ix2 k r) (Fin.ext h1.symm)

/-- An index of the result array lies in point `t`'s block iff each coordinate lies in the block's range on its axis. -/
theorem in_block (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v0).slice (win0_2.rect t)).set ↔ _
  rw [View.set_slice_whole, Rect.mem_set_unit]
  exact Iff.rfl

/-- Row `r` of the result is written back by point `r / 5000`: the ten blocks cover the array. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨-, -, -, -, e4, e5⟩ := block_indices ⟨(i 0).val / 5000, ht⟩
  refine ⟨⟨(i 0).val / 5000, ht⟩, flush0_2 _, ?_⟩
  rw [in_block]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    rw [e5]; omega

/-- After region 0 its result array is the matrix product of the feature array and the weight array it was entered with. -/
theorem product_array (c : Dev nD) :
    (dat0 V c).arrAt 2 cfg0.N = Layer.matProd (V c main_arg0) (V c main_arg2) :=
  (dat0 V c).arrAt_eq_of_cover 2 (Layer.matProd (V c main_arg0) (V c main_arg2)) (fun t _ => written_back V c t) covered

end Cert.KernelIdeal.Product

end
-- ==== Proof.Stretch.lean ====
/-
  The host operations between the two kernels.

  Between the first kernel's exit and the second kernel's entry the program runs 57 host operations in three stretches.
  Whatever the buffers hold when the first stretch starts, the buffer the second kernel reads as its first operand ends
  holding `Layer.aggregate` of the product buffer and the edge list, and the one it reads as its second operand holds the
  bias vector viewed as a one-row matrix. The operations are followed one by one; the chain itself is never opened.
-/
import proofs.«165486_j45586782880363_1_alg».proof.Proof.Gen.KernelIdeal.Launch
import proofs.«165486_j45586782880363_1_alg».proof.Proof.Layer
import Idealize.ShloMosaic.Lib.StableHlo.Run

noncomputable section

namespace Cert.KernelIdeal.Stretch

open Idealize.ShloMosaic Idealize.ShloMosaic.TcCoe Idealize.ShloMosaic.StableHlo Idealize.SL.Sem
open Cert.KernelIdeal Cert.KernelIdeal.Gen

variable {F : FTy → Type} [FloatOps F]

/-- After the three stretches the aggregated buffer holds the normalized neighbourhood sum of what the product buffer
    held, along the edges the edge buffer held. -/
theorem aggregated (Wv : Valuation τ sig (Elt F)) :
    StableHlo.after hostOps1_2 (StableHlo.after hostOps1_1 (StableHlo.after hostOps1 Wv)) (Proc.devRef .tc main_v43)
      = Layer.aggregate (F := F) (Wv (Proc.devRef .tc main_v0)) (Wv (Proc.devRef .tc main_arg1)) := by
  after_results_simp
  rfl

/-- After the three stretches the one-row bias buffer holds the bias vector, reshaped. -/
theorem bias_row (Wv : Valuation τ sig (Elt F)) :
    StableHlo.after hostOps1_2 (StableHlo.after hostOps1_1 (StableHlo.after hostOps1 Wv)) (Proc.devRef .tc main_v44)
      = shapeCast S1x128 (Wv (Proc.devRef .tc main_arg3) : FVec F S128 .f32) Facts₀.shapeCasts_S128_S1x128 := by
  after_results_simp
  rfl

end Cert.KernelIdeal.Stretch

end
-- ==== Proof.Rectify.lean ====
/-
  Region 1 adds the bias and rectifies.

  The second kernel runs over ten grid points. At point `t` it loads rows `5000 t … 5000 t + 4999` of its first operand and
  the whole of its one-row second operand, adds the row to every loaded row, takes the maximum with zero entry by entry, and
  writes the block back as the same rows of its result. Every entry of the result depends on the same entry of the first
  operand and on one entry of the row only, and the ten blocks tile the result: so the result array is `biasReluRow` of the
  two arrays the region found.
-/
import proofs.«165486_j45586782880363_1_alg».proof.Proof.Gen.KernelIdeal.Frame
import proofs.«165486_j45586782880363_1_alg».proof.Proof.Layer
import Idealize.ShloMosaic.Lib.Pipeline.Value
import Idealize.ShloMosaic.Lib.ValueLayout

noncomputable section

namespace Cert.KernelIdeal.Rectify

open Idealize.ShloMosaic Idealize.ShloMosaic.TcCoe Idealize.ShloMosaic.ValueIdx Idealize.SL.Sem
open Idealize.ShloMosaic.Pipeline (Dat)
open Cert.KernelIdeal Cert.KernelIdeal.Gen

/-- A one-row matrix added to every row, then the rectifier: entry `(p, q)` is `max (a (p, q) + r (0, q)) 0`. -/
def biasReluRow (a : FVec Ideal S50000x128 .f32) (r : FVec Ideal S1x128 .f32) : FVec Ideal S50000x128 .f32 :=
  fun i => max (a i + r (ix2 (n0 := 1) (n1 := 128) (0 : Fin 1) ⟨(i 1).val, idx2_lt1 i⟩)) (Ideal.ofBits .f32 0x00000000#32)

/-- With the bias vector viewed as one row, that is the layer's bias-and-rectifier. -/
theorem biasReluRow_cast (a : FVec Ideal S50000x128 .f32) (b : FVec Ideal S128 .f32) (h : S128.ShapeCasts S1x128) :
    biasReluRow a (shapeCast S1x128 b h) = Layer.biasRelu a b := by
  funext i
  unfold biasReluRow Layer.biasRelu
  rw [shapeCast_a_1a_apply b h (0 : Fin 1) ⟨(i 1).val, idx2_lt1 i⟩]

/-- The body's one stored value at `(p, q)`: the loaded entry plus the row's entry `q`, or zero if that is larger. -/
theorem stored_apply (x0 : Vec Ideal S5000x128 .f32) (x1 : Vec Ideal S1x128 .f32) (p : Fin 5000) (q : Fin 128) :
    k1_pay1 (F := Ideal) x0 x1 (ix2 p q) = max (x0 (ix2 p q) + x1 (ix2 (0 : Fin 1) q)) (Ideal.ofBits .f32 0x00000000#32) := by
  unfold k1_pay1
  show max (shapeCast S5000x128 x0 Facts₀.shapeCasts_S5000x128_S5000x128 (ix2 p q)
      + broadcastTo S5000x128 (shapeCast S1x128 x1 Facts₀.shapeCasts_S1x128_S1x128) Facts₀.broadcasts_S1x128_S5000x128 (ix2 p q)) _ = _
  rw [shapeCast_self, shapeCast_self, broadcastTo_1b_ab_apply]
  rfl

variable (V : (c : Dev nD) → (b : Ref sig .tc) → Buf (Elt Ideal) ((c : Thread nD τ).loc b))

theorem zero_offsets : (![0, 0] : Fin 2 → Nat) = fun _ => 0 := funext fun a => by fin_cases a <;> rfl

/-- The three index maps over the ten grid points: at point `t` the first operand's window and the result window sit at
    row block `t`, the row's window at its only block. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem point_lt (t : Fin cfg1.N) : t.val < 10 := by have := t.isLt; have hN : cfg1.N = 10 := N_1; omega

/-- The first window's block at point `t` is rows `5000 t … 5000 t + 4999` of its array. -/
theorem rows_block (c : Dev nD) (t : Fin cfg1.N) (p : Fin 5000) (q : Fin 128) :
    (iblk1 V c 0 t : Vec Ideal S5000x128 .f32) (ix2 p q)
      = (V c main_v43 : FVec Ideal S50000x128 .f32) (ix2 (n0 := 50000) (n1 := 128) ⟨t.val * 5000 + p.val, by have := point_lt t; have := p.isLt; omega⟩ q) := by
  obtain ⟨e0, e1, -⟩ := block_indices t
  unfold iblk1
  rw [View.read_apply]
  show V c main_v43 _ = V c main_v43 _
  refine congrArg (V c main_v43) ?_
  funext a
  apply Fin.ext
  match a with
  | ⟨0, _⟩ => show win1_0.index t (0 : Fin 2) * 5000 + 1 * p.val = t.val * 5000 + p.val; rw [e0]; omega
  | ⟨1, _⟩ => show win1_0.index t (1 : Fin 2) * 128 + 1 * q.val = q.val; rw [e1]; omega

/-- The row's window, at every point, is the whole one-row array. -/
theorem row_block (c : Dev nD) (t : Fin cfg1.N) (u : Fin 1) (q : Fin 128) :
    (iblk1 V c 1 t : Vec Ideal S1x128 .f32) (ix2 u q) = (V c main_v44 : FVec Ideal S1x128 .f32) (ix2 u q) := by
  obtain ⟨-, -, e2, e3, -⟩ := block_indices t
  unfold iblk1
  rw [View.read_apply]
  show V c main_v44 _ = V c main_v44 _
  refine congrArg (V c main_v44) ?_
  funext a
  apply Fin.ext
  match a with
  | ⟨0, _⟩ => show win1_1.index t (0 : Fin 2) * 1 + 1 * u.val = u.val; rw [e2]; omega
  | ⟨1, _⟩ => show win1_1.index t (1 : Fin 2) * 128 + 1 * q.val = q.val; rw [e3]; omega

/-- What point `t` writes back is block `t` of `biasReluRow` of the two arrays the region finds. -/
theorem written_back (c : Dev nD) (t : Fin cfg1.N) :
    (dat1 V c).flushed 2 t = ((cfg1.win 2).blk t).view.read (Elt Ideal) (biasReluRow (V c main_v43) (V c main_v44)) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S1x128) zero_offsets]
  funext j
  obtain ⟨p, q, rfl⟩ : ∃ (p : Fin 5000) (q : Fin 128), j = ix2 p q := ⟨j 0, j 1, eq_ix2 j⟩
  obtain ⟨-, -, -, -, e4, e5⟩ := block_indices t
  rw [View.read_apply]
  show k1_pay1 (iblk1 V c 0 t) (iblk1 V c 1 t) (ix2 p q) = biasReluRow (V c main_v43) (V c main_v44) _
  refine (stored_apply _ _ p q).trans ?_
  unfold biasReluRow
  rw [rows_block V c t p q, row_block V c t (0 : Fin 1) q]
  have h0 : (((cfg1.win 2).blk t).view.emb (ix2 p q) 0).val = t.val * 5000 + p.val := by
    show win1_2.index t (0 : Fin 2) * 5000 + 1 * p.val = _
    rw [e4]; omega
  have h1 : (((cfg1.win 2).blk t).view.emb (ix2 p q) 1).val = q.val := by
    show win1_2.index t (1 : Fin 2) * 128 + 1 * q.val = _
    rw [e5]; omega
  refine congrArg₂ (fun u v => max (u + v) (Ideal.ofBits .f32 0x00000000#32)) (congrArg (V c main_v43) ?_) (congrArg (V c main_v44) ?_)
  · funext a
    apply Fin.ext
    match a with
    | ⟨0, _⟩ => exact h0.symm
    | ⟨1, _⟩ => exact h1.symm
  · exact congrArg (fun r : Fin 128 => ix2 (0 : Fin 1) r) (Fin.ext h1.symm)

/-- An index of the result array lies in point `t`'s block iff each coordinate lies in the block's range on its axis. -/
theorem in_block (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v45).slice (win1_2.rect t)).set ↔ _
  rw [View.set_slice_whole, Rect.mem_set_unit]
  exact Iff.rfl

/-- Row `r` of the result is written back by point `r / 5000`: the ten blocks cover the array. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨-, -, -, -, e4, e5⟩ := block_indices ⟨(i 0).val / 5000, ht⟩
  refine ⟨⟨(i 0).val / 5000, ht⟩, flush1_2 _, ?_⟩
  rw [in_block]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ (1 : Fin 2) * 128 ≤ (i 1).val
      ∧ (i 1).val < win1_2.index ⟨(i 0).val / 5000, ht⟩ (1 : Fin 2) * 128 + 128
    rw [e5]; omega

/-- After region 1 its result array is `biasReluRow` of the two arrays it was entered with. -/
theorem rectified_array (c : Dev nD) :
    (dat1 V c).arrAt 2 cfg1.N = biasReluRow (V c main_v43) (V c main_v44) :=
  (dat1 V c).arrAt_eq_of_cover 2 (biasReluRow (V c main_v43) (V c main_v44)) (fun t _ => written_back V c t) covered

end Cert.KernelIdeal.Rectify

end
-- ==== Proof.KernelValue.lean ====
/-
  The kernel program computes the layer.

  Reading the fold of boundary contents from the end: the result buffer is what region 1 leaves, `biasReluRow` of the
  aggregated buffer and the one-row bias buffer as region 1 finds them; the host stretches made those `Layer.aggregate` of
  the product buffer and the edge list, and the bias vector as one row; and region 0 left the product buffer at
  `Layer.matProd` of the features and the weights. The edge list and the bias are as launched, since region 0 writes only
  its own result. Together: `Layer.layer` of the four argument arrays.
-/
import proofs.«165486_j45586782880363_1_alg».proof.Proof.KernelRun
import proofs.«165486_j45586782880363_1_alg».proof.Proof.Product
import proofs.«165486_j45586782880363_1_alg».proof.Proof.Stretch
import proofs.«165486_j45586782880363_1_alg».proof.Proof.Rectify

noncomputable section

namespace Cert.KernelIdeal.Whole

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- Region 0 leaves the product buffer at the features times the weights. -/
theorem product_buffer (c : Dev nD) :
    W1 m ρ c (Proc.devRef .tc main_v0)
      = Layer.matProd (m ((c : Thread nD τ).loc main_arg0)) (m ((c : Thread nD τ).loc main_arg2)) :=
  (W1_arr m ρ c 2).trans (Product.product_array (V0 m ρ) c)

/-- Region 0 does not write the edge list. -/
theorem edges_buffer (c : Dev nD) : W1 m ρ c (Proc.devRef .tc main_arg1) = m ((c : Thread nD τ).loc main_arg1) :=
  W1_of_ne m ρ c main_arg1 (by decide)

/-- Region 0 does not write the bias. -/
theorem bias_buffer (c : Dev nD) : W1 m ρ c (Proc.devRef .tc main_arg3) = m ((c : Thread nD τ).loc main_arg3) :=
  W1_of_ne m ρ c main_arg3 (by decide)

/-- Region 1 finds its first operand at the normalized neighbourhood sum of the product. -/
theorem aggregated_buffer (c : Dev nD) :
    V4 m ρ c main_v43
      = Layer.aggregate (Layer.matProd (m ((c : Thread nD τ).loc main_arg0)) (m ((c : Thread nD τ).loc main_arg2)))
          (m ((c : Thread nD τ).loc main_arg1)) := by
  refine (Stretch.aggregated (W1 m ρ c)).trans ?_
  rw [product_buffer, edges_buffer]

/-- Region 1 finds its second operand at the bias vector viewed as one row. -/
theorem bias_row_buffer (c : Dev nD) :
    V4 m ρ c main_v44 = shapeCast S1x128 (m ((c : Thread nD τ).loc main_arg3) : FVec Ideal S128 .f32) Facts₀.shapeCasts_S128_S1x128 := by
  refine (Stretch.bias_row (W1 m ρ c)).trans ?_
  rw [bias_buffer]

/-- The result buffer at the last boundary is the layer of the four argument arrays. -/
theorem result_eq (c : Dev nD) :
    W5 m ρ c (Proc.devRef .tc main_v45)
      = Layer.layer (m ((c : Thread nD τ).loc main_arg0)) (m ((c : Thread nD τ).loc main_arg1))
          (m ((c : Thread nD τ).loc main_arg2)) (m ((c : Thread nD τ).loc main_arg3)) := by
  refine (W5_arr m ρ c 2).trans ?_
  rw [Rectify.rectified_array (V4 m ρ) c, aggregated_buffer, bias_row_buffer, Rectify.biasReluRow_cast]
  rfl

/-- The run, read: the result array at the layer of the arguments, the arguments unchanged. -/
theorem run : θ_run defs (onTc (τ := τ) (main (F := Ideal))) ⟨m, fun _ => 0, ρ⟩ (fun r => ∀ c : Dev nD,
      r.2.mem ((c.tc : Thread nD τ).loc main_v45)
        = Layer.layer (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (Result.run m ρ)

end Cert.KernelIdeal.Whole

end
-- ==== Proof.Reference.lean ====
/-
  The reference program computes the layer.

  The reference is one straight line of host operations: a `dot_general` of the features and the weights, the same chain
  of operations that `Layer.aggregate` names, the bias broadcast over the rows and added, and the maximum with zero. Its
  result term is therefore `Layer.aggregate` applied to the `dot_general`, followed by the bias and the rectifier; the
  `dot_general` at `(p, q)` is the sum over `k` of `x (p, k) * W (k, q)`, which is `Layer.matProd`; and the two broadcasts
  of the bias read, at `(p, q)`, its entry `q`.
-/
import proofs.«165486_j45586782880363_1_alg».proof.Proof.ReferenceRun
import proofs.«165486_j45586782880363_1_alg».proof.Proof.Layer
import proofs.«165486_j45586782880363_1_alg».proof.Proof.LibPlainDot
import proofs.«165486_j45586782880363_1_alg».proof.Proof.Gen.KernelIdeal
import Idealize.ShloMosaic.Lib.Pipeline.Value

noncomputable section

namespace Cert.ReferenceIdeal.RefValue

open Idealize.ShloMosaic Idealize.ShloMosaic.TcCoe Idealize.ShloMosaic.ValueIdx Idealize.SL.Sem
open Cert.ReferenceIdeal Cert.ReferenceIdeal.Gen

/-- The host's product of the features and the weights is the matrix product, entry by entry. -/
theorem dot_eq (x : FVec Ideal S50000x128 .f32) (W : FVec Ideal S128x128 .f32) :
    Host.dotGeneral (F := Ideal) dot_S50000x128_S128x128_S50000x128_1_0_0_1_n_n none x W = Layer.matProd x W := by
  funext i
  obtain ⟨p, q, rfl⟩ : ∃ (p : Fin 50000) (q : Fin 128), i = ix2 p q := ⟨i 0, i 1, eq_ix2 i⟩
  exact PlainDot.dotGeneral_apply 50000 128 128 none .single x W p q

/-- The bias broadcast over the rows and added, then the maximum with the zero array: the layer's bias-and-rectifier. -/
theorem tail_eq (a : FVec Ideal S50000x128 .f32) (b : FVec Ideal S128 .f32) :
    maximumf (addf a (broadcastInDim S50000x128 ![0, 1] Facts₀.bcast_S1x128_S50000x128_0_1 (broadcastInDim S1x128 ![1] Facts₀.bcast_S128_S1x128_1 b)))
        (broadcastInDim S50000x128 ![] Facts₀.bcast_S_S50000x128 (constant (F := Ideal) S_ .f32 0x00000000#32))
      = Layer.biasRelu a b := by
  funext i
  obtain ⟨p, q, rfl⟩ : ∃ (p : Fin 50000) (q : Fin 128), i = ix2 p q := ⟨i 0, i 1, eq_ix2 i⟩
  rw [maximumf_apply, addf_apply]
  rw [broadcastInDim_apply ![0, 1] Facts₀.bcast_S1x128_S50000x128_0_1 _ (ix2 p q) (ix2 (0 : Fin 1) q) (fun ax => by
      match ax with
      | ⟨0, _⟩ => rfl
      | ⟨1, _⟩ => rfl)]
  rw [broadcastInDim_apply ![1] Facts₀.bcast_S128_S1x128_1 b (ix2 (0 : Fin 1) q) (ix1 q) (fun ax => by
      match ax with
      | ⟨0, _⟩ => rfl)]
  rw [broadcastInDim_apply ![] Facts₀.bcast_S_S50000x128 _ (ix2 p q) ix0 (fun ax => ax.elim0)]
  rfl

/-- The reference's result term is the layer of its four argument arrays. -/
theorem result_eq (m : (ℓ : Loc nD τ sig) → Buf (Elt Ideal) ℓ) (c : Dev nD) :
    Cert.ReferenceIdeal.ValueP.res_main_v47 (F := Ideal) m c
      = Layer.layer (m ((c.tc : Thread nD τ).loc main_arg0)) (m ((c.tc : Thread nD τ).loc main_arg1))
          (m ((c.tc : Thread nD τ).loc main_arg2)) (m ((c.tc : Thread nD τ).loc main_arg3)) := by
  have opened : Cert.ReferenceIdeal.ValueP.res_main_v47 (F := Ideal) m c
      = maximumf (addf (Layer.aggregate (F := Ideal)
            (Host.dotGeneral (F := Ideal) (φ₁ := .f32) (φ₂ := .f32) dot_S50000x128_S128x128_S50000x128_1_0_0_1_n_n none (m ((c.tc : Thread nD τ).loc main_arg0)) (m ((c.tc : Thread nD τ).loc main_arg2)))
            (m ((c.tc : Thread nD τ).loc main_arg1)))
          (broadcastInDim S50000x128 ![0, 1] Facts₀.bcast_S1x128_S50000x128_0_1 (broadcastInDim S1x128 ![1] Facts₀.bcast_S128_S1x128_1 (m ((c.tc : Thread nD τ).loc main_arg3)))))
        (broadcastInDim S50000x128 ![] Facts₀.bcast_S_S50000x128 (constant (F := Ideal) S_ .f32 0x00000000#32)) := by
    unfold Cert.ReferenceIdeal.ValueP.res_main_v47
    rfl
  rw [opened, dot_eq, tail_eq]
  rfl

end Cert.ReferenceIdeal.RefValue

end
-- ==== Proof.lean ====
/-
  A graph-convolution layer: the kernel program against its reference, on the extended reals.

  Both programs compute `out = max (aggregate (x · W) e + b, 0)` (`Cert.Layer.layer`): the node features times the weights,
  the normalized neighbourhood sum along the edges with self-loops added, the bias, the rectifier.
  The kernel program computes the product in a first kernel, ten row blocks of 5000 rows, the operands rounded to bf16 on
  the way in, which on the extended reals is the identity, and the accumulator started at zero; it runs the neighbourhood
  sum as host operations; and it adds the bias and rectifies in a second kernel, again ten row blocks. The reference
  computes the product as one host `dot_general`, runs the SAME host operations for the neighbourhood sum, and adds the
  bias and rectifies as host operations.
  The two products are the same sum over the 128 shared indices, entry by entry; the neighbourhood sum is one function
  applied to equal arrays and is never opened; and both tails read, at `(p, q)`, `max (a (p, q) + b q) 0`. No law used
  needs finiteness: the precondition is not opened.
  The kernel program's idealization rewrote nothing, so `preserves` holds trivially. The frames of the two kernel
  programs are the generated ones; the reference's frame is its run with the result forgotten.
-/
import proofs.«165486_j45586782880363_1_alg».proof.Defs
import proofs.«165486_j45586782880363_1_alg».proof.Proof.Gen.Kernel
import proofs.«165486_j45586782880363_1_alg».proof.Proof.Gen.Kernel.Skeleton
import proofs.«165486_j45586782880363_1_alg».proof.Proof.Gen.Kernel.Launch
import proofs.«165486_j45586782880363_1_alg».proof.Proof.Gen.Kernel.Points
import proofs.«165486_j45586782880363_1_alg».proof.Proof.Gen.Kernel.Frame
import proofs.«165486_j45586782880363_1_alg».proof.Proof.Gen.KernelIdeal
import proofs.«165486_j45586782880363_1_alg».proof.Proof.Gen.KernelIdeal.Skeleton
import proofs.«165486_j45586782880363_1_alg».proof.Proof.Gen.KernelIdeal.Launch
import proofs.«165486_j45586782880363_1_alg».proof.Proof.Gen.KernelIdeal.Points
import proofs.«165486_j45586782880363_1_alg».proof.Proof.Gen.KernelIdeal.Frame
import proofs.«165486_j45586782880363_1_alg».proof.Proof.Gen.ReferenceIdeal
import proofs.«165486_j45586782880363_1_alg».proof.Proof.Gen.Pre_finite_inputs
import proofs.«165486_j45586782880363_1_alg».proof.Proof.KernelValue
import proofs.«165486_j45586782880363_1_alg».proof.Proof.Reference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run, its result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the four arguments both programs end with the result array at the layer of those
    arguments: the kernel program by its run read through its two regions and the host operations between them, the
    reference by its run's term. -/
theorem algebraic : Cert.algebraic_KernelIdeal_ReferenceIdeal := by
  intro m ρ m' ρ' _ hagree
  refine ⟨fun c => Cert.Layer.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.result_eq m' c, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
